-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S8192x1 : Shape := ⟨2, ![8192, 1]⟩
abbrev S512x4096 : Shape := ⟨2, ![512, 4096]⟩
abbrev S512x1 : Shape := ⟨2, ![512, 1]⟩
abbrev S512 : Shape := ⟨1, ![512]⟩
abbrev S1024x4096 : Shape := ⟨2, ![1024, 4096]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .bf16⟩
  | .hbm, ⟨6, _⟩ => ⟨S8192x1, .f32⟩
  | .hbm, ⟨7, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x1, .f32⟩
  | .local _ .vmem, ⟨5, _⟩ => ⟨S512x1, .f32⟩
  | .local _ .vmem, ⟨6, _⟩ => ⟨S1024x4096, .bf16⟩
  | .local _ .vmem, ⟨7, _⟩ => ⟨S1024x4096, .bf16⟩
  | .local _ .vmem, ⟨8, _⟩ => ⟨S1024x1, .f32⟩
  | .local _ .vmem, ⟨9, _⟩ => ⟨S1024x1, .f32⟩
  | .local _ .vmem, ⟨10, _⟩ => ⟨S512x4096, .bf16⟩
  | .local _ .vmem, ⟨11, _⟩ => ⟨S512x4096, .bf16⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  packedbf16_S512x4096_S512x4096_0_0 : (Rect.unit (s := S512x4096) ![0, 0] S512x4096.size inb_S512x4096_S512x4096_0_0).PackedRows (EltTy.packing .bf16)
  inb_S512x1_S512x1_0_0 : ∀ a, (![0, 0] : Fin 2 → Nat) a + S512x1.size a ≤ S512x1.size a
  h_S512x1 : 0 < S512x1.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S512x4096_S512x4096 : S512x4096.ShapeCasts S512x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .bf16 = 32 ∨ (Rect.block (s := S4096x4096) S512x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x4096.size a
  hwx1_4 : ∀ i : grid1.Coords, EltTy.bits .f32 = 32 ∨ (Rect.block (s := S8192x4096) S1024x512.size (cc1_transform_4 i) (hinb1_4 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2_0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .i1⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibRowQuant.lean ====
/-
  Per-row symmetric quantization followed by a matrix product: the arithmetic, with no program in sight.

  A row `r` of reals has a step `s(r) = max_k |r_k| / 127` (taken to be `1` when that is `0`) and quantized entries
  `q(r)_k = clamp(round(r_k / s(r)), -127, 127)`.  One program multiplies the quantized rows by the weights and
  scales each product row afterwards, `(Σ_k q_k · w_k) · s`; the other scales the quantized row first,
  `Σ_k (q_k · s) · w_k`.  Over the extended reals the two agree when the entries are finite: the quantized entries
  lie in `[-127, 127]`, the step of a finite row is finite, and for real numbers a factor moves across a finite sum.
-/
import Idealize.ShloMosaic.PureOps.Ideal
import Idealize.ShloMosaic.PureOps.Ideal.Laws
import Idealize.ShloMosaic.Lib.ValueIdx

noncomputable section

namespace Cert.QuantSpec

open Idealize.ShloMosaic Idealize.ShloMosaic.ValueIdx

/-! ## The constants the two programs spell -/

theorem ofBits_127 : Ideal.ofBits .f32 0x42FE0000#32 = ((127 : ℝ) : EReal) := by
  simp [Ideal.ofBits, Ideal.ieee, -EReal.coe_mul]; norm_num

theorem ofBits_neg127 : Ideal.ofBits .f32 0xC2FE0000#32 = ((-127 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

/-! ## One row -/

/-- The greatest absolute value of a row: the fold of `max` from minus infinity over `|r_k| = max r_k (-r_k)`. -/
def absMax {b : ℕ} (row : Fin b → EReal) : EReal :=
  (Finset.univ : Finset (Fin b)).fold max (Ideal.ofBits .f32 0xFF800000#32) (fun k => max (row k) (-(row k)))

/-- The row's quantization step: its greatest absolute value over 127, replaced by 1 when that quotient is 0. -/
def stepOf {b : ℕ} (row : Fin b → EReal) : EReal :=
  Scalar.select (Ideal.cmp .oeq (Ideal.div (absMax row) (Ideal.ofBits .f32 0x42FE0000#32)) (Ideal.ofBits .f32 0x00000000#32))
    (Ideal.ofBits .f32 0x3F800000#32) (Ideal.div (absMax row) (Ideal.ofBits .f32 0x42FE0000#32))

/-- The row's quantized entry `k`: the entry over the step, rounded to the nearest integer (ties to even), clamped to
    `[-127, 127]`. -/
def quantOf {b : ℕ} (row : Fin b → EReal) (k : Fin b) : EReal :=
  min (Ideal.ofBits .f32 0x42FE0000#32)
    (max (Ideal.ofBits .f32 0xC2FE0000#32) (Ideal.liftRound Ideal.roundHalfEven (Ideal.div (row k) (stepOf row))))

/-- A quantized entry is a real number, whatever the row: it lies between -127 and 127. -/
theorem quantOf_real {b : ℕ} (row : Fin b → EReal) (k : Fin b) : ∃ r : ℝ, quantOf row k = (r : EReal) := by
  refine ⟨(quantOf row k).toReal, (EReal.coe_toReal ?_ ?_).symm⟩
  · refine ne_top_of_le_ne_top (EReal.coe_ne_top 127) ?_
    unfold quantOf; rw [ofBits_127]; exact min_le_left _ _
  · refine ne_bot_of_le_ne_bot (EReal.coe_ne_bot (-127)) ?_
    unfold quantOf; rw [ofBits_127, ofBits_neg127]
    exact le_min (EReal.coe_le_coe_iff.mpr (by norm_num)) (le_max_left _ _)

/-- The greatest absolute value of a nonempty row of reals is a real number. -/
theorem absMax_real {b : ℕ} (hb : 0 < b) (row : Fin b → EReal) (h : ∀ k, ∃ r : ℝ, row k = (r : EReal)) :
    ∃ r : ℝ, absMax row = (r : EReal) := by
  choose row' hrow using h
  refine ⟨(absMax row).toReal, (EReal.coe_toReal ?_ ?_).symm⟩
  · refine ne_of_lt ?_
    unfold absMax
    rw [Finset.fold_max_lt]
    refine ⟨by rw [ofBits_negInf]; exact bot_lt_top, fun k _ => ?_⟩
    rw [hrow k, ← EReal.coe_neg]; exact max_lt (EReal.coe_lt_top _) (EReal.coe_lt_top _)
  · refine ne_of_gt ?_
    unfold absMax
    rw [Finset.lt_fold_max]
    refine Or.inr ⟨⟨0, hb⟩, Finset.mem_univ _, ?_⟩
    rw [hrow]; exact lt_max_of_lt_left (EReal.bot_lt_coe _)

/-- The step of a nonempty row of reals is a real number. -/
theorem stepOf_real {b : ℕ} (hb : 0 < b) (row : Fin b → EReal) (h : ∀ k, ∃ r : ℝ, row k = (r : EReal)) :
    ∃ r : ℝ, stepOf row = (r : EReal) := by
  obtain ⟨a, ha⟩ := absMax_real hb row h
  have hd : Ideal.div (absMax row) (Ideal.ofBits .f32 0x42FE0000#32) = ((a * (1 / 127) : ℝ) : EReal) := by
    rw [ofBits_127, Ideal.div_coe (by norm_num : (127 : ℝ) ≠ 0), ha, ← EReal.coe_mul]
  unfold stepOf Scalar.select
  rw [hd]
  split
  · exact ⟨1, ofBits_one⟩
  · exact ⟨_, rfl⟩

/-! ## Moving the step across the sum -/

/-- The coercion of the reals into the extended reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For real entries, scaling a dot product afterwards is scaling one factor of every term first. -/
theorem scale_across_sum {K : ℕ} (q w : Fin K → EReal) (s : EReal) (hq : ∀ k, ∃ r : ℝ, q k = (r : EReal))
    (hw : ∀ k, ∃ r : ℝ, w k = (r : EReal)) (hs : ∃ r : ℝ, s = (r : EReal)) :
    (∑ k, q k * w k) * s = ∑ k, (q k * s) * w k := by
  choose q' hq' using hq
  choose w' hw' using hw
  obtain ⟨s', rfl⟩ := hs
  simp only [hq', hw', ← EReal.coe_mul, ← coe_sum]
  rw [Finset.sum_mul]
  exact congrArg _ (Finset.sum_congr rfl fun k _ => by ring)

/-! ## The two programs' results, entry by entry -/

/-- A matrix of extended reals, indexed as the programs' arrays are. -/
abbrev Mat (a b : ℕ) := (⟨2, ![a, b]⟩ : Shape).Idx → EReal

/-- Row `n` of a matrix. -/
def rowOf {a b : ℕ} (x : Mat a b) (n : Fin a) : Fin b → EReal := fun k => x (ix2 n k)

/-- Entry `(n, j)` as the kernel computes it: quantized row `n` against weight row `j`, the product scaled by the
    row's step, plus the bias. -/
def kernelForm {a b o : ℕ} (x : Mat a b) (w : Mat o b) (bias : (⟨1, ![o]⟩ : Shape).Idx → EReal) (n : Fin a) (j : Fin o) : EReal :=
  (∑ k : Fin b, quantOf (rowOf x n) k * w (ix2 j k)) * stepOf (rowOf x n) + bias (ix1 j)

/-- Entry `(n, j)` as the reference computes it: the dequantized row `n` against weight row `j`, plus the bias. -/
def refForm {a b o : ℕ} (x : Mat a b) (w : Mat o b) (bias : (⟨1, ![o]⟩ : Shape).Idx → EReal) (n : Fin a) (j : Fin o) : EReal :=
  (∑ k : Fin b, (quantOf (rowOf x n) k * stepOf (rowOf x n)) * w (ix2 j k)) + bias (ix1 j)

/-- On finite inputs the two forms agree. -/
theorem kernelForm_eq_refForm {a b o : ℕ} (hb : 0 < b) (x : Mat a b) (w : Mat o b) (bias : (⟨1, ![o]⟩ : Shape).Idx → EReal)
    (hx : ∀ i, ∃ r : ℝ, x i = (r : EReal)) (hw : ∀ i, ∃ r : ℝ, w i = (r : EReal)) (n : Fin a) (j : Fin o) :
    kernelForm x w bias n j = refForm x w bias n j := by
  unfold kernelForm refForm
  rw [scale_across_sum (fun k => quantOf (rowOf x n) k) (fun k => w (ix2 j k)) (stepOf (rowOf x n))
    (fun k => quantOf_real _ k) (fun k => hw _) (stepOf_real hb _ fun k => hx _)]

end Cert.QuantSpec

end
-- ==== Proof.KernelRun.lean ====
/-
  The idealized kernel's run with its result array named.

  The program is two pipelined regions after two host operations.  Its frame proof follows the buffer contents
  through the segments: `W1` after the host operations, `W2` after the quantizing region, `W3` after the matrix
  product.  The frame claim keeps, of the last contents, only that the three arguments are as launched; here the same
  run is read once more, keeping also what the result array holds: the last contents `W3` at the result's buffer.
-/
import proofs.«150223_j29695403884785_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array then holds the
    last segment boundary's contents `W3` at its buffer, and the three arguments are as launched. -/
theorem run : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Named

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.MatmulBody.lean ====
/-
  The matrix-product kernel's body at one entry.

  At a grid point the body holds a block `A` of 1024 quantized rows, the 1024 steps `s` of those rows as a column, a block
  `B` of 512 weight rows and the matching 512 bias entries `c` as a row.  It stores `(A · Bᵀ) ∘ s + c`: entry `(p, q)` is
  `(Σ_k A(p,k) · B(q,k)) · s(p) + c(q)`.
-/
import proofs.«150223_j29695403884785_2_alg».proof.Proof.Gen.KernelIdeal.Skeleton
import proofs.«150223_j29695403884785_2_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MatmulBody

open Cert.KernelIdeal Cert.KernelIdeal.Gen Idealize.ShloMosaic Idealize.ShloMosaic.ValueIdx

/-- The left operand's index for result entry `i`: its row is `i`'s row … -/
theorem lhs_row (i : S1024x512.Idx) (c : (dot_S1024x4096_S512x4096_S1024x512_1_1_0_0_n_n).contr.Idx) :
    ((dot_S1024x4096_S512x4096_S1024x512_1_1_0_0_n_n).lhsIdx i c 0).val = (i 0).val := by
  unfold DotDims.lhsIdx
  rw [dif_neg (show ¬(0 : Fin S1024x4096.rank) ∈ (dot_S1024x4096_S512x4096_S1024x512_1_1_0_0_n_n).lhsBatch by decide),
    dif_pos (show (0 : Fin S1024x4096.rank) ∈ (dot_S1024x4096_S512x4096_S1024x512_1_1_0_0_n_n).lhsNonContracting by decide)]
  rfl
/-- … and its column the contracted coordinate. -/
theorem lhs_col (i : S1024x512.Idx) (c : (dot_S1024x4096_S512x4096_S1024x512_1_1_0_0_n_n).contr.Idx) :
    ((dot_S1024x4096_S512x4096_S1024x512_1_1_0_0_n_n).lhsIdx i c 1).val = (c ⟨0, by decide⟩).val :=
  (dot_S1024x4096_S512x4096_S1024x512_1_1_0_0_n_n).lhsIdx_val_of_single rfl i c
/-- The right operand's index for result entry `i`: its row is `i`'s column … -/
theorem rhs_row (i : S1024x512.Idx) (c : (dot_S1024x4096_S512x4096_S1024x512_1_1_0_0_n_n).contr.Idx) :
    ((dot_S1024x4096_S512x4096_S1024x512_1_1_0_0_n_n).rhsIdx i c 0).val = (i 1).val := by
  unfold DotDims.rhsIdx
  rw [dif_neg (show ¬(0 : Fin S512x4096.rank) ∈ (dot_S1024x4096_S512x4096_S1024x512_1_1_0_0_n_n).rhsBatch by decide),
    dif_pos (show (0 : Fin S512x4096.rank) ∈ (dot_S1024x4096_S512x4096_S1024x512_1_1_0_0_n_n).rhsNonContracting by decide)]
  rfl
/-- … and its column the contracted coordinate. -/
theorem rhs_col (i : S1024x512.Idx) (c : (dot_S1024x4096_S512x4096_S1024x512_1_1_0_0_n_n).contr.Idx) :
    ((dot_S1024x4096_S512x4096_S1024x512_1_1_0_0_n_n).rhsIdx i c 1).val = (c ⟨0, by decide⟩).val :=
  (dot_S1024x4096_S512x4096_S1024x512_1_1_0_0_n_n).rhsIdx_val_of_single rfl i c

/-- The product of a block of rows with a block of weight rows, both contracted along their second axis, into a
    zero accumulator: entry `(p, q)` is the dot product of row `p` with weight row `q`. -/
theorem matmul_rows (A : FVec Ideal S1024x4096 .bf16) (B : FVec Ideal S512x4096 .bf16) (p : Fin 1024) (q : Fin 512) :
    matmul (F := Ideal) dot_S1024x4096_S512x4096_S1024x512_1_1_0_0_n_n none A B (constant S1024x512 .f32 0x00000000#32) (ix2 p q)
      = ∑ k : Fin 4096, A (ix2 p k) * B (ix2 q k) := by
  show FloatOps.matmul dot_S1024x4096_S512x4096_S1024x512_1_1_0_0_n_n none A B (constant S1024x512 .f32 0x00000000#32) (ix2 p q) = _
  rw [Ideal.matmul_constant_zero_apply,
    ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q)
      ((contrEquiv1 dot_S1024x4096_S512x4096_S1024x512_1_1_0_0_n_n 4096 rfl rfl).symm k) = ix2 p k :=
    funext fun a => Fin.ext (by
      match a with
      | ⟨0, _⟩ => exact lhs_row _ _
      | ⟨1, _⟩ => exact (lhs_col _ _).trans hk)
  have er : dot_S1024x4096_S512x4096_S1024x512_1_1_0_0_n_n.rhsIdx (ix2 p q)
      ((contrEquiv1 dot_S1024x4096_S512x4096_S1024x512_1_1_0_0_n_n 4096 rfl rfl).symm k) = ix2 q k :=
    funext fun a => Fin.ext (by
      match a with
      | ⟨0, _⟩ => exact rhs_row _ _
      | ⟨1, _⟩ => exact (rhs_col _ _).trans hk)
  rw [el, er]

/-- The body's stored value at entry `(p, q)`. -/
theorem stored_apply (A : Vec Ideal S1024x4096 .bf16) (B : Vec Ideal S512x4096 .bf16) (s : Vec Ideal S1024x1 .f32)
    (c : Vec Ideal S1x512 .f32) (p : Fin 1024) (q : Fin 512) :
    k1_pay1 A B s c (ix2 p q)
      = (∑ k : Fin 4096, A (ix2 p k) * B (ix2 q k)) * s (ix2 p (0 : Fin 1)) + c (ix2 (0 : Fin 1) q) := by
  unfold k1_pay1
  simp only [shapeCast_self]
  exact congrArg₂ (· + ·)
    (congrArg₂ (· * ·) (matmul_rows A B p q) (Cert.ColumnForms.broadcastTo_a1_ab_apply s broadcasts_S1024x1_S1024x512 p q))
    (broadcastTo_1b_ab_apply c broadcasts_S1x512_S1024x512 p q)

end Cert.KernelIdeal.MatmulBody

end
-- ==== Proof.MatmulRegion.lean ====
/-
  What the matrix-product region leaves in its result array, as one function of the arrays it is entered with.

  The grid is 8 × 8.  Point `(i, j)` reads rows `1024 i … 1024 i + 1023` of the quantized matrix and of the column of
  steps, weight rows `512 j … 512 j + 511` and the same bias entries, and writes the `1024 × 512` block `(i, j)` of the
  result.  So the block written at a point is that block of ONE whole-array function — entry `(n, o)` is
  `(Σ_k Q(n,k) · W(o,k)) · s(n) + c(o)` — and the 64 blocks tile the array.
-/
import proofs.«150223_j29695403884785_2_alg».proof.Proof.Gen.KernelIdeal.Frame
import proofs.«150223_j29695403884785_2_alg».proof.Proof.MatmulBody
import Idealize.ShloMosaic.Lib.Pipeline.Value

set_option maxRecDepth 16384

noncomputable section

namespace Cert.KernelIdeal.MatmulRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Entry `(n, o)` of the scaled product plus bias, from the whole arrays. -/
def product (Q : S8192x4096.Idx → Elt Ideal .bf16) (s : S8192x1.Idx → Elt Ideal .f32) (W : S4096x4096.Idx → Elt Ideal .bf16)
    (c : S1x4096.Idx → Elt Ideal .f32) : S8192x4096.Idx → Elt Ideal .f32 :=
  fun i => (∑ k : Fin 4096, Q (ix2 (i 0) k) * W (ix2 (i 1) k)) * s (ix2 (i 0) (0 : Fin 1)) + c (ix2 (0 : Fin 1) (i 1))

theorem product_apply (Q : S8192x4096.Idx → Elt Ideal .bf16) (s : S8192x1.Idx → Elt Ideal .f32) (W : S4096x4096.Idx → Elt Ideal .bf16)
    (c : S1x4096.Idx → Elt Ideal .f32) (n : Fin 8192) (o : Fin 4096) :
    product Q s W c (ix2 n o) = (∑ k : Fin 4096, Q (ix2 n k) * W (ix2 o k)) * s (ix2 n (0 : Fin 1)) + c (ix2 (0 : Fin 1) o) := rfl

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the quantized rows and the steps move with the result's block row, the
    weights and the bias with its block column, and nothing else moves. -/
theorem index_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (1 : Fin 2) ∧ win1_2.index t (1 : Fin 2) = 0
    ∧ win1_3.index t (0 : Fin 2) = 0 ∧ win1_3.index t (1 : Fin 2) = win1_4.index t (1 : Fin 2)
    ∧ win1_4.index t (0 : Fin 2) ≤ 7 ∧ win1_4.index t (1 : Fin 2) ≤ 7 :=
  (by decide +kernel : ∀ t : Fin grid1.N, _)

/-- Every block of the result is some point's. -/
theorem index_onto : ∀ (q0 : Fin 8) (q1 : Fin 8), ∃ t : Fin cfg1.N, win1_4.index t = ![q0.val, q1.val] :=
  (by decide +kernel : ∀ (q0 : Fin 8) (q1 : Fin 8), ∃ t : Fin grid1.N, win1_4.index t = ![q0.val, q1.val])

/-- The block of quantized rows at a point, read at `(p, k)`: row `n` of the whole matrix, when `n` is `p` past the block's first row. -/
theorem rows_apply (c : Dev nD) (t : Fin cfg1.N) (p : Fin 1024) (k : Fin 4096) (n : Fin 8192)
    (hn : n.val = win1_0.index t (0 : Fin 2) * 1024 + p.val) (h1 : win1_0.index t (1 : Fin 2) = 0) :
    iblk1 V c 0 t (ix2 p k) = V c main_v2_0 (ix2 n k) := by
  show V c main_v2_0 (((cfg1.win 0).blk t).view.emb (ix2 p k)) = _
  refine congrArg _ (funext fun a => Fin.ext ?_)
  match a with
  | ⟨0, _⟩ => show win1_0.index t (0 : Fin 2) * 1024 + 1 * p.val = n.val; omega
  | ⟨1, _⟩ => show win1_0.index t (1 : Fin 2) * 4096 + 1 * k.val = k.val; omega

/-- The block of steps at a point, read at `(p, 0)`. -/
theorem steps_apply (c : Dev nD) (t : Fin cfg1.N) (p : Fin 1024) (n : Fin 8192)
    (hn : n.val = win1_1.index t (0 : Fin 2) * 1024 + p.val) (h1 : win1_1.index t (1 : Fin 2) = 0) :
    iblk1 V c 1 t (ix2 p (0 : Fin 1)) = V c main_v2_1 (ix2 n (0 : Fin 1)) := by
  show V c main_v2_1 (((cfg1.win 1).blk t).view.emb (ix2 p (0 : Fin 1))) = _
  refine congrArg _ (funext fun a => Fin.ext ?_)
  match a with
  | ⟨0, _⟩ => show win1_1.index t (0 : Fin 2) * 1024 + 1 * p.val = n.val; omega
  | ⟨1, _⟩ => show win1_1.index t (1 : Fin 2) * 1 + 1 * 0 = 0; omega

/-- The block of weight rows at a point, read at `(q, k)`. -/
theorem weights_apply (c : Dev nD) (t : Fin cfg1.N) (q : Fin 512) (k : Fin 4096) (o : Fin 4096)
    (ho : o.val = win1_2.index t (0 : Fin 2) * 512 + q.val) (h1 : win1_2.index t (1 : Fin 2) = 0) :
    iblk1 V c 2 t (ix2 q k) = V c main_v0 (ix2 o k) := by
  show V c main_v0 (((cfg1.win 2).blk t).view.emb (ix2 q k)) = _
  refine congrArg _ (funext fun a => Fin.ext ?_)
  match a with
  | ⟨0, _⟩ => show win1_2.index t (0 : Fin 2) * 512 + 1 * q.val = o.val; omega
  | ⟨1, _⟩ => show win1_2.index t (1 : Fin 2) * 4096 + 1 * k.val = k.val; omega

/-- The block of bias entries at a point, read at `(0, q)`. -/
theorem bias_apply (c : Dev nD) (t : Fin cfg1.N) (q : Fin 512) (o : Fin 4096)
    (ho : o.val = win1_3.index t (1 : Fin 2) * 512 + q.val) (h0 : win1_3.index t (0 : Fin 2) = 0) :
    iblk1 V c 3 t (ix2 (0 : Fin 1) q) = V c main_v1 (ix2 (0 : Fin 1) o) := by
  show V c main_v1 (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 512 + 1 * q.val = o.val; omega

/-- WHAT POINT `t` WRITES BACK is block `t` of the product of the arrays the region is entered with. -/
theorem flushed_eq (c : Dev nD) (t : Fin cfg1.N) :
    (dat1 V c).flushed 4 t = ((cfg1.win 4).blk t).view.read (Elt Ideal)
      (product (V c main_v2_0) (V c main_v2_1) (V c main_v0) (V c main_v1)) := by
  show (cfg1.win 4).cut (grid1.coords t) ((dat1 V c).after 4 t) = _
  rw [after1_4]
  unfold out1_4
  rw [View.canon_unit_zero origin]
  simp only [View.ld_unit_zero (S := S1024x4096) origin, View.ld_unit_zero (S := S512x4096) origin,
    View.ld_unit_zero (S := S1024x1) origin, View.ld_unit_zero (S := S1x512) origin]
  obtain ⟨e00, e01, e10, e11, e20, e21, e30, e31, b0, b1⟩ := index_facts t
  funext j
  obtain ⟨p, q, rfl⟩ : ∃ (p : Fin 1024) (q : Fin 512), j = ix2 p q := ⟨j 0, j 1, eq_ix2 j⟩
  have hp := p.isLt
  have hq := q.isLt
  obtain ⟨n, hn⟩ : ∃ n : Fin 8192, n.val = win1_4.index t (0 : Fin 2) * 1024 + p.val := ⟨⟨_, by omega⟩, rfl⟩
  obtain ⟨o, ho⟩ : ∃ o : Fin 4096, o.val = win1_4.index t (1 : Fin 2) * 512 + q.val := ⟨⟨_, by omega⟩, rfl⟩
  have hemb : ((cfg1.win 4).blk t).view.emb (ix2 p q) = ix2 n o := by
    funext a; apply Fin.ext
    match a with
    | ⟨0, _⟩ => show win1_4.index t (0 : Fin 2) * 1024 + 1 * p.val = n.val; omega
    | ⟨1, _⟩ => show win1_4.index t (1 : Fin 2) * 512 + 1 * q.val = o.val; omega
  show k1_pay1 (iblk1 V c 0 t) (iblk1 V c 2 t) (iblk1 V c 1 t) (iblk1 V c 3 t) (ix2 p q)
    = product (V c main_v2_0) (V c main_v2_1) (V c main_v0) (V c main_v1) (((cfg1.win 4).blk t).view.emb (ix2 p q))
  rw [hemb, product_apply]
  refine (MatmulBody.stored_apply _ _ _ _ p q).trans ?_
  exact congrArg₂ (· + ·)
    (congrArg₂ (· * ·)
      (Finset.sum_congr rfl fun k _ => congrArg₂ (· * ·)
        (rows_apply V c t p k n (by omega) e01)
        (weights_apply V c t q k o (by omega) e21))
      (steps_apply V c t p n (by omega) e11))
    (bias_apply V c t q o (by omega) e30)

/-- An index of the result is in point `t`'s block iff each coordinate is in the block's range on its axis. -/
theorem mem_blk (t : Fin cfg1.N) (i : S8192x4096.Idx) :
    i ∈ ((cfg1.win 4).blk t).view.set ↔ ∀ a : Fin 2, win1_4.index t a * S1024x512.size a ≤ (i a).val
      ∧ (i a).val < win1_4.index t a * S1024x512.size a + S1024x512.size a := by
  show i ∈ ((View.whole main_v3).slice (win1_4.rect t)).set ↔ _
  rw [View.set_slice_whole, Rect.mem_set_unit]
  exact Iff.rfl

/-- Every index of the result is in some point's block: the one whose block row is `n / 1024` and block column `o / 512`. -/
theorem cover (i : S8192x4096.Idx) : ∃ t : Fin cfg1.N, (cfg1.win 4).flush t = true ∧ i ∈ ((cfg1.win 4).blk t).view.set := by
  have hi0 : (i 0).val < 8192 := (i 0).isLt
  have hi1 : (i 1).val < 4096 := (i 1).isLt
  obtain ⟨t, ht⟩ := index_onto ⟨(i 0).val / 1024, by omega⟩ ⟨(i 1).val / 512, by omega⟩
  have q0 : win1_4.index t (0 : Fin 2) = (i 0).val / 1024 := congrFun ht 0
  have q1 : win1_4.index t (1 : Fin 2) = (i 1).val / 512 := congrFun ht 1
  refine ⟨t, flush1_4 t, ?_⟩
  rw [mem_blk]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 512 ≤ (i 1).val ∧ (i 1).val < win1_4.index t (1 : Fin 2) * 512 + 512; omega

/-- THE RESULT ARRAY after the region: the product of the arrays the region is entered with. -/
theorem final (c : Dev nD) :
    (dat1 V c).arrAt 4 cfg1.N = product (V c main_v2_0) (V c main_v2_1) (V c main_v0) (V c main_v1) :=
  (dat1 V c).arrAt_eq_of_cover 4 _ (fun t _ => flushed_eq V c t) cover

end Cert.KernelIdeal.MatmulRegion

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.QuantBody.lean ====
/-
  The quantizing kernel's body at one entry.

  At a grid point the body holds a block of 512 whole rows.  For each row it takes the greatest absolute value, divides
  it by 127 (and takes 1 if the quotient is 0) to get the row's step, and stores the step as a column; and it stores
  every entry divided by its row's step, rounded and clamped to `[-127, 127]`.  Both stored values at row `r` depend on
  row `r` of the block alone.
-/
import proofs.«150223_j29695403884785_2_alg».proof.Proof.Gen.KernelIdeal.Skeleton
import proofs.«150223_j29695403884785_2_alg».proof.Proof.LibColumnForms
import proofs.«150223_j29695403884785_2_alg».proof.Proof.LibRowForms
import proofs.«150223_j29695403884785_2_alg».proof.Proof.LibRowQuant
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.QuantBody

open Cert.KernelIdeal Cert.KernelIdeal.Gen Cert.QuantSpec Idealize.ShloMosaic Idealize.ShloMosaic.ValueIdx

/-- The row maxima of the absolute values, laid out as a column: at `(r, 0)` the greatest absolute value of row `r`. -/
theorem absMax_column (x : Vec Ideal S512x4096 .f32) (r : Fin 512) (u : Fin 1) :
    shapeCast S512x1 (multiReduction (F := Ideal) .maximumf [1] S512 (absf x) 0xFF800000#32 reduces_S512x4096_S512 (.inl rfl) rfl)
        shapeCasts_S512_S512x1 (ix2 r u) = absMax (rowOf x r) := by
  rw [Cert.ColumnForms.shapeCast_a_a1_apply, Cert.RowForms.multiReduction_max_rows]
  rfl

/-- The stored step at `(r, 0)` is the step of row `r` of the block. -/
theorem step_apply (x : Vec Ideal S512x4096 .f32) (r : Fin 512) (u : Fin 1) :
    k0_pay1 x (ix2 r u) = stepOf (rowOf x r) := by
  unfold k0_pay1
  simp only [select_apply, cmpf_apply, divf_apply, broadcast_apply]
  rw [absMax_column]
  rfl

/-- The stored quantized entry at `(r, k)` is entry `k` of the quantized row `r` of the block. -/
theorem quant_apply (x : Vec Ideal S512x4096 .f32) (r : Fin 512) (k : Fin 4096) :
    k0_pay2 x (ix2 r k) = quantOf (rowOf x r) k := by
  have hs : broadcastTo S512x4096 (k0_pay1 x) broadcasts_S512x1_S512x4096 (ix2 r k) = stepOf (rowOf x r) := by
    rw [Cert.ColumnForms.broadcastTo_a1_ab_apply, step_apply]
  unfold k0_pay2
  simp only [truncf_apply, minimumf_apply, maximumf_apply, broadcast_apply]
  show min _ (max _ (Ideal.liftRound Ideal.roundHalfEven (Ideal.div (x (ix2 r k))
    (broadcastTo S512x4096 (k0_pay1 x) broadcasts_S512x1_S512x4096 (ix2 r k))))) = _
  rw [hs]
  rfl

end Cert.KernelIdeal.QuantBody

end
-- ==== Proof.QuantRegion.lean ====
/-
  What the quantizing region leaves in its two result arrays, as functions of the array it is entered with.

  The grid has 16 points.  Point `i` reads rows `512 i … 512 i + 511` of `x`, whole, and writes the same rows of the
  quantized matrix and of the column of steps.  A row's step and its quantized entries depend on that row alone, so the
  blocks written at a point are blocks of whole-array functions — the quantized matrix has at `(n, k)` entry `k` of the
  quantized row `n`, the column of steps has at `(n, 0)` the step of row `n` — and the 16 blocks tile each array.
-/
import proofs.«150223_j29695403884785_2_alg».proof.Proof.Gen.KernelIdeal.Frame
import proofs.«150223_j29695403884785_2_alg».proof.Proof.QuantBody
import Idealize.ShloMosaic.Lib.Pipeline.Value

set_option maxRecDepth 16384

noncomputable section

namespace Cert.KernelIdeal.QuantRegion

open Cert.KernelIdeal Cert.KernelIdeal.Gen Cert.QuantSpec
open Idealize.ShloMosaic Idealize.ShloMosaic.TcCoe Idealize.ShloMosaic.ValueIdx
open Idealize.SL Idealize.SL.Sem
open Idealize.ShloMosaic.Pipeline (Dat Cfg Window)

/-- The quantized matrix: at `(n, k)`, entry `k` of the quantized row `n`. -/
def quantized (x : S8192x4096.Idx → Elt Ideal .f32) : S8192x4096.Idx → Elt Ideal .bf16 :=
  fun i => quantOf (rowOf x (i 0)) (i 1)

/-- The column of steps: at `(n, 0)`, the step of row `n`. -/
def steps (x : S8192x4096.Idx → Elt Ideal .f32) : S8192x1.Idx → Elt Ideal .f32 :=
  fun i => stepOf (rowOf x (i 0))

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: all three windows move together along the rows, and not along the columns. -/
theorem index_facts : ∀ t : Fin cfg0.N,
    win0_0.index t (0 : Fin 2) = win0_1.index t (0 : Fin 2) ∧ win0_0.index t (1 : Fin 2) = 0
    ∧ win0_1.index t (1 : Fin 2) = 0
    ∧ win0_2.index t (0 : Fin 2) = win0_1.index t (0 : Fin 2) ∧ win0_2.index t (1 : Fin 2) = 0
    ∧ win0_1.index t (0 : Fin 2) ≤ 15 :=
  (by decide +kernel : ∀ t : Fin grid0.N, _)

/-- Every block of rows is some point's. -/
theorem index_onto : ∀ q0 : Fin 16, ∃ t : Fin cfg0.N, win0_1.index t (0 : Fin 2) = q0.val :=
  (by decide +kernel : ∀ q0 : Fin 16, ∃ t : Fin grid0.N, win0_1.index t (0 : Fin 2) = q0.val)

/-- Row `r` of the block of `x` at a point is row `n` of `x`, when `n` is `r` past the block's first row. -/
theorem block_row (c : Dev nD) (t : Fin cfg0.N) (r : Fin 512) (n : Fin 8192)
    (hn : n.val = win0_0.index t (0 : Fin 2) * 512 + r.val) (h1 : win0_0.index t (1 : Fin 2) = 0) :
    rowOf (iblk0 V c 0 t) r = rowOf (V c main_arg0) n := by
  funext k
  show V c main_arg0 (((cfg0.win 0).blk t).view.emb (ix2 r k)) = V c main_arg0 (ix2 n k)
  refine congrArg _ (funext fun a => Fin.ext ?_)
  match a with
  | ⟨0, _⟩ => show win0_0.index t (0 : Fin 2) * 512 + 1 * r.val = n.val; omega
  | ⟨1, _⟩ => show win0_0.index t (1 : Fin 2) * 4096 + 1 * k.val = k.val; omega

/-- WHAT POINT `t` WRITES BACK to the quantized matrix is block `t` of `quantized` of `x` as the region finds it. -/
theorem flushed_quantized (c : Dev nD) (t : Fin cfg0.N) :
    (dat0 V c).flushed 1 t = ((cfg0.win 1).blk t).view.read (Elt Ideal) (quantized (V c main_arg0)) := by
  show (cfg0.win 1).cut (grid0.coords t) ((dat0 V c).after 1 t) = _
  rw [after0_1]
  unfold out0_1
  rw [View.canon_unit_zero origin]
  simp only [View.ld_unit_zero (S := S512x4096) origin]
  obtain ⟨e00, e01, e11, e20, e21, b0⟩ := index_facts t
  funext j
  obtain ⟨r, k, rfl⟩ : ∃ (r : Fin 512) (k : Fin 4096), j = ix2 r k := ⟨j 0, j 1, eq_ix2 j⟩
  have hr := r.isLt
  have hk := k.isLt
  obtain ⟨n, hn⟩ : ∃ n : Fin 8192, n.val = win0_1.index t (0 : Fin 2) * 512 + r.val := ⟨⟨_, by omega⟩, rfl⟩
  have hemb : ((cfg0.win 1).blk t).view.emb (ix2 r k) = ix2 n k := by
    funext a; apply Fin.ext
    match a with
    | ⟨0, _⟩ => show win0_1.index t (0 : Fin 2) * 512 + 1 * r.val = n.val; omega
    | ⟨1, _⟩ => show win0_1.index t (1 : Fin 2) * 4096 + 1 * k.val = k.val; omega
  show k0_pay2 (iblk0 V c 0 t) (ix2 r k) = quantized (V c main_arg0) (((cfg0.win 1).blk t).view.emb (ix2 r k))
  rw [hemb]
  refine (QuantBody.quant_apply _ r k).trans ?_
  show quantOf (rowOf (iblk0 V c 0 t) r) k = quantOf (rowOf (V c main_arg0) n) k
  rw [block_row V c t r n (by omega) e01]

/-- WHAT POINT `t` WRITES BACK to the column of steps is block `t` of `steps` of `x` as the region finds it. -/
theorem flushed_steps (c : Dev nD) (t : Fin cfg0.N) :
    (dat0 V c).flushed 2 t = ((cfg0.win 2).blk t).view.read (Elt Ideal) (steps (V c main_arg0)) := by
  show (cfg0.win 2).cut (grid0.coords t) ((dat0 V c).after 2 t) = _
  rw [after0_2]
  unfold out0_2
  rw [View.canon_unit_zero origin]
  simp only [View.ld_unit_zero (S := S512x4096) origin]
  obtain ⟨e00, e01, e11, e20, e21, b0⟩ := index_facts t
  funext j
  obtain ⟨r, u, rfl⟩ : ∃ (r : Fin 512) (u : Fin 1), j = ix2 r u := ⟨j 0, j 1, eq_ix2 j⟩
  have hr := r.isLt
  have hu := u.isLt
  obtain ⟨n, hn⟩ : ∃ n : Fin 8192, n.val = win0_2.index t (0 : Fin 2) * 512 + r.val := ⟨⟨_, by omega⟩, rfl⟩
  have hemb : ((cfg0.win 2).blk t).view.emb (ix2 r u) = ix2 n (0 : Fin 1) := by
    funext a; apply Fin.ext
    match a with
    | ⟨0, _⟩ => show win0_2.index t (0 : Fin 2) * 512 + 1 * r.val = n.val; omega
    | ⟨1, _⟩ => show win0_2.index t (1 : Fin 2) * 1 + 1 * u.val = 0; omega
  show k0_pay1 (iblk0 V c 0 t) (ix2 r u) = steps (V c main_arg0) (((cfg0.win 2).blk t).view.emb (ix2 r u))
  rw [hemb]
  refine (QuantBody.step_apply _ r u).trans ?_
  show stepOf (rowOf (iblk0 V c 0 t) r) = stepOf (rowOf (V c main_arg0) n)
  rw [block_row V c t r n (by omega) e01]

/-- An index of the quantized matrix is in point `t`'s block iff each coordinate is in the block's range on its axis. -/
theorem mem_blk_quantized (t : Fin cfg0.N) (i : S8192x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v2_0).slice (win0_1.rect t)).set ↔ _
  rw [View.set_slice_whole, Rect.mem_set_unit]
  exact Iff.rfl

/-- The same for the column of steps. -/
theorem mem_blk_steps (t : Fin cfg0.N) (i : S8192x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v2_1).slice (win0_2.rect t)).set ↔ _
  rw [View.set_slice_whole, Rect.mem_set_unit]
  exact Iff.rfl

/-- Every index of the quantized matrix is in some point's block: the one whose block row is `n / 512`. -/
theorem cover_quantized (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, q0⟩ := index_onto ⟨(i 0).val / 512, by omega⟩
  obtain ⟨e00, e01, e11, e20, e21, b0⟩ := index_facts t
  have q0' : win0_1.index t (0 : Fin 2) = (i 0).val / 512 := q0
  refine ⟨t, flush0_1 t, ?_⟩
  rw [mem_blk_quantized]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- Every index of the column of steps is in some point's block. -/
theorem cover_steps (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, q0⟩ := index_onto ⟨(i 0).val / 512, by omega⟩
  obtain ⟨e00, e01, e11, e20, e21, b0⟩ := index_facts t
  have q0' : win0_1.index t (0 : Fin 2) = (i 0).val / 512 := q0
  refine ⟨t, flush0_2 t, ?_⟩
  rw [mem_blk_steps]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-- THE QUANTIZED MATRIX after the region. -/
theorem final_quantized (c : Dev nD) : (dat0 V c).arrAt 1 cfg0.N = quantized (V c main_arg0) :=
  (dat0 V c).arrAt_eq_of_cover 1 _ (fun t _ => flushed_quantized V c t) cover_quantized

/-- THE COLUMN OF STEPS after the region. -/
theorem final_steps (c : Dev nD) : (dat0 V c).arrAt 2 cfg0.N = steps (V c main_arg0) :=
  (dat0 V c).arrAt_eq_of_cover 2 _ (fun t _ => flushed_steps V c t) cover_steps

end Cert.KernelIdeal.QuantRegion

end
-- ==== Proof.KernelValue.lean ====
/-
  The idealized kernel's result as one function of its arguments.

  The result array is what the matrix-product region leaves.  That region is entered with the quantized matrix and the
  column of steps as the quantizing region left them — functions of `x`, which that region finds as launched —, with the
  weights as the host's change of format left them (at the extended reals: unchanged) and with the bias laid out as one
  row.  Put together, entry `(n, o)` of the result is `(Σ_k q_k · w(o, k)) · s + bias(o)` with `q`, `s` the quantized row
  `n` of `x` and its step.
-/
import proofs.«150223_j29695403884785_2_alg».proof.Proof.KernelRun
import proofs.«150223_j29695403884785_2_alg».proof.Proof.MatmulRegion
import proofs.«150223_j29695403884785_2_alg».proof.Proof.QuantRegion
import Idealize.ShloMosaic.Lib.StableHlo.Run

set_option maxRecDepth 16384

noncomputable section

namespace Cert.KernelIdeal.KernelValue

open Cert.KernelIdeal Cert.KernelIdeal.Gen Cert.QuantSpec
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- A vector laid out as one row reads, at `(0, o)`, the vector at `o`. -/
theorem row_of_vector {α : Type} (b : S4096.Idx → α) (h : S4096.ShapeCasts S1x4096) (o : Fin 4096) :
    shapeCast S1x4096 b h (ix2 (0 : Fin 1) o) = b (ix1 o) :=
  shapeCast_apply b h _ _ (by
    rw [Shape.rowMajor_val_two, Shape.rowMajor_val_one]
    show o.val = 0 * 4096 + o.val
    omega)

/-- The quantizing region finds `x` as launched: no host operation writes it. -/
theorem entry_x (c : Dev nD) : V1 m ρ c main_arg0 = m ((c : Thread nD τ).loc main_arg0) := by
  show StableHlo.after hostOps0 (W0 m ρ c) (Proc.devRef .tc main_arg0) = _
  after_results <;> rfl

/-- The matrix-product region finds the weights as the host's change of format left them: at the extended reals,
    as launched. -/
theorem entry_weights (c : Dev nD) :
    (V2 m ρ c main_v0 : S4096x4096.Idx → EReal) = m ((c : Thread nD τ).loc main_arg1) :=
  (W2_of_ne m ρ c main_v0 (by decide)).trans (by
    show StableHlo.after hostOps0 (W0 m ρ c) (Proc.devRef .tc main_v0) = _
    after_results <;> rfl)

/-- The matrix-product region finds the bias laid out as one row. -/
theorem entry_bias (c : Dev nD) :
    (V2 m ρ c main_v1 : S1x4096.Idx → EReal) = shapeCast S1x4096 (m ((c : Thread nD τ).loc main_arg2)) shapeCasts_S4096_S1x4096 :=
  (W2_of_ne m ρ c main_v1 (by decide)).trans (by
    show StableHlo.after hostOps0 (W0 m ρ c) (Proc.devRef .tc main_v1) = _
    after_results <;> rfl)

/-- The matrix-product region finds the quantized matrix of `x` … -/
theorem entry_quantized (c : Dev nD) :
    V2 m ρ c main_v2_0 = QuantRegion.quantized (m ((c : Thread nD τ).loc main_arg0)) :=
  (W2_arr m ρ c 1).trans ((QuantRegion.final_quantized (V1 m ρ) c).trans (congrArg QuantRegion.quantized (entry_x m ρ c)))

/-- … and the column of its rows' steps. -/
theorem entry_steps (c : Dev nD) :
    V2 m ρ c main_v2_1 = QuantRegion.steps (m ((c : Thread nD τ).loc main_arg0)) :=
  (W2_arr m ρ c 2).trans ((QuantRegion.final_steps (V1 m ρ) c).trans (congrArg QuantRegion.steps (entry_x m ρ c)))

/-- THE RESULT ARRAY after the run, entry by entry. -/
theorem result_eq (c : Dev nD) :
    W3 m ρ c (Proc.devRef .tc main_v3) = fun i => kernelForm (m ((c : Thread nD τ).loc main_arg0))
      (m ((c : Thread nD τ).loc main_arg1)) (m ((c : Thread nD τ).loc main_arg2)) (i 0) (i 1) := by
  refine (W3_arr m ρ c 4).trans ((MatmulRegion.final (V2 m ρ) c).trans ?_)
  rw [entry_quantized, entry_steps, entry_weights, entry_bias]
  funext i
  obtain ⟨n, o, rfl⟩ : ∃ (n : Fin 8192) (o : Fin 4096), i = ix2 n o := ⟨i 0, i 1, eq_ix2 i⟩
  rw [MatmulRegion.product_apply, row_of_vector]
  rfl

/-- The kernel's run, its result named as that function of the arguments. -/
theorem run : θ_run defs (onTc (τ := τ) (main (F := Ideal))) ⟨m, fun _ => 0, ρ⟩ (fun r => ∀ c : Dev nD,
      r.2.mem ((c.tc : Thread nD τ).loc main_v3) = (fun i => kernelForm (m ((c : Thread nD τ).loc main_arg0))
        (m ((c : Thread nD τ).loc main_arg1)) (m ((c : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Cert.KernelIdeal.Named.run m ρ)

end Cert.KernelIdeal.KernelValue

end
-- ==== Proof.RefValue.lean ====
/-
  The reference program's result, entry by entry.

  The reference quantizes and dequantizes each row of `x` — the row's step from its greatest absolute value, each entry
  over the step rounded and clamped, times the step again — multiplies by the transposed weights and adds the bias.
  Read one operation at a time at entry `(n, j)`, its result is `Σ_k (q_k · s) · w(j, k) + bias(j)` with `q`, `s` the
  quantized row `n` and its step.
-/
import proofs.«150223_j29695403884785_2_alg».proof.Proof.Gen.ReferenceIdeal.Read
import proofs.«150223_j29695403884785_2_alg».proof.Proof.LibRowQuant
import Idealize.ShloMosaic.PureOps.Reduce

noncomputable section

namespace Cert.ReferenceIdeal.RefValue

open Cert.ReferenceIdeal Cert.ReferenceIdeal.Gen Cert.ReferenceIdeal.Read Cert.QuantSpec
open Idealize.ShloMosaic Idealize.ShloMosaic.ValueIdx

/-- The index that reduces to `n` along the second axis and has `k` there is `(n, k)`. -/
theorem lift_row (h : S8192x4096.Reduces [1] S8192) (n : Fin 8192) (k : Fin (S8192x4096.size 1)) :
    h.lift (ix1 n) k = ix2 n (⟨k.val, k.isLt⟩ : Fin 4096) := by
  funext d; apply Fin.ext
  match d with
  | ⟨0, _⟩ => rfl
  | ⟨1, _⟩ => rfl

/-- The reference's row maxima of `|x|`: at `n`, the greatest absolute value of row `n`. -/
theorem rowMax_apply (x : (⟨S8192x4096, .f32⟩ : BufTy).Contents (Elt Ideal)) (n : Fin 8192) :
    val_main_v1 (F := Ideal) x (ix1 n) = absMax (rowOf x n) := by
  unfold val_main_v1
  rw [Host.reduce_eq_fold_single FloatOps.maximumf _ _ reducesTo_S8192x4096_S8192_d1 (by decide : S8192x4096.Reduces [1] S8192) h_S_]
  exact congrArg (fun f => Finset.fold max (Ideal.ofBits .f32 0xFF800000#32) f (Finset.univ : Finset (Fin 4096)))
    (funext fun k => congrArg (fun i => max (x i) (-(x i))) (lift_row _ n k))

/-- The reference's column of steps: at `(n, 0)`, the step of row `n`. -/
theorem step_apply (x : (⟨S8192x4096, .f32⟩ : BufTy).Contents (Elt Ideal)) (n : Fin 8192) (u : Fin 1) :
    val_main_v8 (F := Ideal) x (ix2 n u) = stepOf (rowOf x n) := by
  have e2 : idx_main_v2 (ix2 n u) = ix1 n := funext fun a => Fin.ext (by match a with | ⟨0, _⟩ => rfl)
  rw [val_main_v8_apply, val_main_v6_apply, val_main_v4_apply, val_main_v2_apply, val_main_v3_apply, val_main_v5_apply,
    val_main_v7_apply, e2, rowMax_apply]
  rfl

/-- The reference's dequantized matrix: at `(n, k)`, the quantized entry times the step of row `n`. -/
theorem dequant_apply (x : (⟨S8192x4096, .f32⟩ : BufTy).Contents (Elt Ideal)) (n : Fin 8192) (k : Fin 4096) :
    val_main_v14 (F := Ideal) x (ix2 n k) = quantOf (rowOf x n) k * stepOf (rowOf x n) := by
  have e9 : idx_main_v9 (ix2 n k) = ix2 n (0 : Fin 1) := funext fun a => Fin.ext (by
    match a with | ⟨0, _⟩ => rfl | ⟨1, _⟩ => rfl)
  have e13 : idx_main_v13 (ix2 n k) = ix2 n (0 : Fin 1) := funext fun a => Fin.ext (by
    match a with | ⟨0, _⟩ => rfl | ⟨1, _⟩ => rfl)
  rw [val_main_v14_apply, val_main_v13_apply, e13, step_apply, val_main_v12_apply, val_main_call2_v4_apply,
    val_main_call2_v2_apply, val_main_call2_v1_apply, val_main_v11_apply, val_main_v10_apply, val_main_v9_apply, e9, step_apply]
  rfl

/-- THE REFERENCE'S RESULT at `(n, j)`. -/
theorem result_apply (x : (⟨S8192x4096, .f32⟩ : BufTy).Contents (Elt Ideal)) (w : (⟨S4096x4096, .f32⟩ : BufTy).Contents (Elt Ideal))
    (bias : (⟨S4096, .f32⟩ : BufTy).Contents (Elt Ideal)) (n : Fin 8192) (j : Fin 4096) :
    val_main_v18 (F := Ideal) x w bias (ix2 n j) = refForm x w bias n j := by
  have el : ∀ k : Fin 4096, lidx_main_v15 (ix2 n j) k = ix2 n k := fun k => funext fun a => Fin.ext (by
    match a with | ⟨0, _⟩ => rfl | ⟨1, _⟩ => rfl)
  have er : ∀ k : Fin 4096, ridx_main_v15 (ix2 n j) k = ix2 j k := fun k => funext fun a => Fin.ext (by
    match a with | ⟨0, _⟩ => rfl | ⟨1, _⟩ => rfl)
  have eb : idx_main_v16 (idx_main_v17 (ix2 n j)) = ix1 j := funext fun a => Fin.ext (by match a with | ⟨0, _⟩ => rfl)
  rw [val_main_v18_apply, val_main_v15_apply, val_main_v17_apply, val_main_v16_apply, eb]
  simp only [el, er, dequant_apply]
  rfl

/-- The reference's result as one function of the arguments. -/
theorem result_eq (x : (⟨S8192x4096, .f32⟩ : BufTy).Contents (Elt Ideal)) (w : (⟨S4096x4096, .f32⟩ : BufTy).Contents (Elt Ideal))
    (bias : (⟨S4096, .f32⟩ : BufTy).Contents (Elt Ideal)) :
    val_main_v18 (F := Ideal) x w bias = fun i => refForm x w bias (i 0) (i 1) := by
  funext i
  obtain ⟨n, j, rfl⟩ : ∃ (n : Fin 8192) (j : Fin 4096), i = ix2 n j := ⟨i 0, i 1, eq_ix2 i⟩
  exact result_apply x w bias n j

end Cert.ReferenceIdeal.RefValue

end
-- ==== Proof.Finite.lean ====
/-
  What the precondition says: every entry of `x` and of the weights is a real number.

  The precondition is the conjunction of three tests "all entries have absolute value below plus infinity", each an
  `and` over every entry of one input.  An `and` that comes out true had every operand true, and an extended real whose
  absolute value `max x (-x)` is below plus infinity is neither infinity: it is a real number.
-/
import proofs.«150223_j29695403884785_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic

instance : Subsingleton S_.Idx := ⟨fun a b => funext fun d => d.elim0⟩

theorem ofBits_inf : Ideal.ofBits .f32 0x7F800000#32 = (⊤ : EReal) := by simp [Ideal.ofBits, Ideal.ieee]

/-- An extended real whose absolute value tests below plus infinity is a real number. -/
theorem real_of_abs_lt_inf (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- Under the precondition every entry of the first two inputs is a real number. -/
theorem reals_of_pre (x0 : FVec Ideal S8192x4096 .f32) (x1 : FVec Ideal S4096x4096 .f32) (x2 : FVec Ideal S4096 .f32)
    (h : fn (F := Ideal) x0 x1 x2 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨h01, h2⟩ := IntOp.andi_eq_one.1 h0
  obtain ⟨ha, hb⟩ := IntOp.andi_eq_one.1 h01
  exact ⟨fun i => real_of_abs_lt_inf _ (Host.reduce_andi_all _ _ _ _ _ ha i),
    fun i => real_of_abs_lt_inf _ (Host.reduce_andi_all _ _ _ _ _ hb i)⟩

end Cert.Pre_finite_inputs.Finite

end
-- ==== Proof.lean ====
/-
  Per-row int8 quantization of `x` followed by the product with the transposed weights, plus a bias.

  THE KERNEL runs two pipelined regions.  The first, over 16 blocks of 512 whole rows of `x`, computes each row's
  step `s = max_k |x_k| / 127` (`1` when that is `0`) and the quantized row `q_k = clamp(round(x_k / s), -127, 127)`, and
  writes `q` and `s` as separate arrays.  The second, over an 8 × 8 grid of `1024 × 512` result blocks, multiplies
  quantized rows by weight rows and scales the product afterwards: `(Σ_k q_k · w(o, k)) · s + bias(o)`.

  THE REFERENCE dequantizes first: it forms `q_k · s` and multiplies that by the weights, `Σ_k (q_k · s) · w(o, k) + bias(o)`.

  Read over the extended reals, where a change of float format is the identity, the row maxima, the steps and the
  quantized entries of the two programs are the same functions of `x`; the two results differ only in where the step
  multiplies.  Moving a factor across a sum needs finite terms: the quantized entries are finite by the clamp, the step
  of a finite row is finite, and the precondition makes `x` and the weights finite.  The bias is added last on both
  sides and needs nothing.

  The parts: `LibRowQuant` (the arithmetic of one row and the law), `QuantBody` / `MatmulBody` (each kernel body's stored
  values at an entry), `QuantRegion` / `MatmulRegion` (each region's result arrays as whole-array functions of the
  arrays it is entered with: every block written is a block of that function, and the blocks tile the array),
  `KernelRun` / `KernelValue` (the run with the result array named, and its contents as a function of the arguments),
  `RefValue` (the reference's result read one operation at a time), `Finite` (what the precondition gives).
-/
import proofs.«150223_j29695403884785_2_alg».proof.Defs
import proofs.«150223_j29695403884785_2_alg».proof.Proof.Gen.Kernel
import proofs.«150223_j29695403884785_2_alg».proof.Proof.Gen.Kernel.Skeleton
import proofs.«150223_j29695403884785_2_alg».proof.Proof.Gen.Kernel.Launch
import proofs.«150223_j29695403884785_2_alg».proof.Proof.Gen.Kernel.Points
import proofs.«150223_j29695403884785_2_alg».proof.Proof.Gen.Kernel.Frame
import proofs.«150223_j29695403884785_2_alg».proof.Proof.Gen.KernelIdeal
import proofs.«150223_j29695403884785_2_alg».proof.Proof.Gen.KernelIdeal.Skeleton
import proofs.«150223_j29695403884785_2_alg».proof.Proof.Gen.KernelIdeal.Launch
import proofs.«150223_j29695403884785_2_alg».proof.Proof.Gen.KernelIdeal.Points
import proofs.«150223_j29695403884785_2_alg».proof.Proof.Gen.KernelIdeal.Frame
import proofs.«150223_j29695403884785_2_alg».proof.Proof.Gen.ReferenceIdeal
import proofs.«150223_j29695403884785_2_alg».proof.Proof.Gen.ReferenceIdeal.Run
import proofs.«150223_j29695403884785_2_alg».proof.Proof.Gen.ReferenceIdeal.Read
import proofs.«150223_j29695403884785_2_alg».proof.Proof.Gen.Pre_finite_inputs
import proofs.«150223_j29695403884785_2_alg».proof.Proof.LibRowQuant
import proofs.«150223_j29695403884785_2_alg».proof.Proof.KernelValue
import proofs.«150223_j29695403884785_2_alg».proof.Proof.RefValue
import proofs.«150223_j29695403884785_2_alg».proof.Proof.Finite
import Idealize.ShloMosaic.Adequacy
import Idealize.ShloMosaic.Init

noncomputable section

namespace Cert.Proof

open Idealize.ShloMosaic Idealize.SL.Sem Cert.QuantSpec

/-- The kernel as printed runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on finite arguments both idealized programs end with the same result: the kernel's
    `(Σ_k q_k · w(o, k)) · s + bias(o)` is the reference's `Σ_k (q_k · s) · w(o, k) + bias(o)`. -/
theorem algebraic : Cert.algebraic_KernelIdeal_ReferenceIdeal := by
  intro m ρ m' ρ' hpre hagree
  refine ⟨fun c => fun i => kernelForm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2]
  obtain ⟨hx, hw⟩ := Cert.Pre_finite_inputs.Finite.reals_of_pre _ _ _ (hpre c)
  funext i
  exact (kernelForm_eq_refForm (by decide) _ _ _ hx hw (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
